-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 31
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S640000x1, .f32⟩
  | .hbm, ⟨23, _⟩ => ⟨S_, .f32⟩
  | .hbm, ⟨24, _⟩ => ⟨S100000x1, .f32⟩
  | .hbm, ⟨25, _⟩ => ⟨S640000x1, .i32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S_, .f32⟩
  | .hbm, ⟨22, _⟩ => ⟨S640000x1, .f32⟩
  | .hbm, ⟨23, _⟩ => ⟨S_, .f32⟩
  | .hbm, ⟨24, _⟩ => ⟨S100000x1, .f32⟩
  | .hbm, ⟨25, _⟩ => ⟨S640000x1, .i32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerSpec.lean ====
/-
  One graph-convolution layer on 100000 nodes with 128 features, as a function of arrays.

  Given the summed neighbour features `agg` (one row per node), the clamped in-degree `deg` (one entry per node,
  kept as a column), the node features `x`, the weight matrix `W` (output feature × input feature) and the bias `b`,
  the layer's entry at node `r` and output feature `c` is

      max ( Σ_k (agg[r,k] / deg[r] + x[r,k]) · W[c,k]  +  b[c] ,  0 )

  on the extended reals: the mean of the neighbours plus the node's own row, multiplied by the transposed weights,
  shifted by the bias and clipped below at zero. Nothing here mentions a program; both programs are shown to
  compute this function.
-/
import Idealize.ShloMosaic.PureOps.Ideal
import Idealize.ShloMosaic.Lib.ValueIdx

noncomputable section

open scoped BigOperators

namespace Cert.GcnLayer

open Idealize.ShloMosaic Idealize.ShloMosaic.ValueIdx

/-- The layer's value at node `r`, output feature `c`. The zero it is clipped at is written as the f32 word of
    `0.0`, the spelling both programs use, so it is never evaluated. -/
def layerAt (agg : FVec Ideal ⟨2, ![100000, 128]⟩ .f32) (deg : FVec Ideal ⟨2, ![100000, 1]⟩ .f32)
    (x : FVec Ideal ⟨2, ![100000, 128]⟩ .f32) (W : FVec Ideal ⟨2, ![128, 128]⟩ .f32) (b : FVec Ideal ⟨1, ![128]⟩ .f32)
    (r : Fin 100000) (c : Fin 128) : EReal :=
  max ((∑ k : Fin 128, (Ideal.div (agg (ix2 r k)) (deg (ix2 r (0 : Fin 1))) + x (ix2 r k)) * W (ix2 c k)) + b (ix1 c))
    (Ideal.ofBits .f32 0x00000000#32)

/-- The whole output array: `layerAt` at each index's two coordinates. -/
def layer (agg : FVec Ideal ⟨2, ![100000, 128]⟩ .f32) (deg : FVec Ideal ⟨2, ![100000, 1]⟩ .f32)
    (x : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => layerAt agg deg x W b (i 0) (i 1)

theorem layer_apply (agg : FVec Ideal ⟨2, ![100000, 128]⟩ .f32) (deg : FVec Ideal ⟨2, ![100000, 1]⟩ .f32)
    (x : FVec Ideal ⟨2, ![100000, 128]⟩ .f32) (W : FVec Ideal ⟨2, ![128, 128]⟩ .f32) (b : FVec Ideal ⟨1, ![128]⟩ .f32)
    (r : Fin 100000) (c : Fin 128) : layer agg deg x W b (ix2 r c) = layerAt agg deg x W b r c := rfl

end Cert.GcnLayer

end
-- ==== Proof.BlockValue.lean ====
/-
  What the kernel's body stores for one block of 2000 nodes, read at a row `p` of the block and an output feature `q`.

  The body divides the block of summed neighbour rows by the block's degree column (the column laid along all 128
  features), adds the block of node rows, multiplies the result by the transposed weight matrix on the matrix unit
  into a zero accumulator, adds the bias laid along every row, and clips at zero. On the extended reals the change
  to bf16 before the product is the identity, the product into a zero accumulator is the plain sum over the 128
  input features, and so the stored entry is

      max ( Σ_k (a[p,k] / d[p] + x[p,k]) · W[q,k]  +  b[q] ,  0 ).
-/
import proofs.«100019_j13374528159917_1_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.ValueIdx

/-- A column `[a, 1]` laid along `b` columns reads, at `(p, c)`, the column's entry at row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the transposed weights, entry by entry -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_contracted (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_contracted (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix unit's product into a zero accumulator, at row `p` and column `q`: the sum over the 128 contracted
    coordinates of the left operand's row `p` times the right operand's column `q`. -/
theorem matmul_row_col (L : FVec Ideal S2000x128 .bf16) (R : FVec Ideal S128x128 .bf16) (p : Fin 2000) (q : Fin 128) :
    matmul dot_S2000x128_S128x128_S2000x128_1_0_0_1_n_n none L R (constant S2000x128 .f32 0x00000000#32) (ix2 p q)
      = ∑ k : Fin 128, L (ix2 p k) * R (ix2 k q) := by
  show FloatOps.matmul dot_S2000x128_S128x128_S2000x128_1_0_0_1_n_n none L R (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contracted _ _).trans hk)
  have er : dot_S2000x128_S128x128_S2000x128_1_0_0_1_n_n.rhsIdx (ix2 p q)
      ((contrEquiv1 dot_S2000x128_S128x128_S2000x128_1_0_0_1_n_n 128 rfl rfl).symm k) = ix2 k q := funext fun a => Fin.ext (by
    match a with
    | ⟨0, _⟩ => exact (rhs_contracted _ _).trans hk
    | ⟨1, _⟩ => exact rhs_col _ _)
  rw [el, er]

/-! ## The stored block, entry by entry -/

/-- The body's stored value at row `p` of the block and output feature `q`, from the five loaded blocks. -/
theorem payload_apply (a : Vec Ideal S2000x128 .f32) (d : Vec Ideal S2000x1 .f32) (x : Vec Ideal S2000x128 .f32)
    (W : Vec Ideal S128x128 .f32) (b : Vec Ideal S128 .f32) (p : Fin 2000) (q : Fin 128) :
    k0_pay1 (F := Ideal) a d x W b (ix2 p q)
      = max ((∑ k : Fin 128, (Ideal.div (a (ix2 p k)) (d (ix2 p (0 : Fin 1))) + x (ix2 p k)) * W (ix2 q k)) + b (ix1 q))
          (Ideal.ofBits .f32 0x00000000#32) := by
  unfold k0_pay1
  refine congrArg₂ max (congrArg₂ (· + ·) ((matmul_row_col _ _ p q).trans (Finset.sum_congr rfl fun k _ => ?_)) ?_) rfl
  · refine congrArg₂ (· * ·) ?_ ?_
    · show Ideal.div (shapeCast S2000x128 a shapeCasts_S2000x128_S2000x128 (ix2 p k))
          (broadcastTo S2000x128 (shapeCast S2000x1 d shapeCasts_S2000x1_S2000x1) broadcasts_S2000x1_S2000x128 (ix2 p k))
          + x (ix2 p k) = _
      rw [shapeCast_self, shapeCast_self, broadcastTo_column_apply]
    · exact transpose_ix2_apply _ _ k q
  · exact (broadcastTo_1b_ab_apply _ _ p q).trans (shapeCast_a_1a_apply _ _ 0 q)

end Cert.KernelIdeal.Block

end
-- ==== Proof.BlockRows.lean ====
/-
  Which rows of which array each block of the dense stage is.

  The grid has 50 points. At point `t` the three row-blocked inputs (the summed neighbour rows, the degree column, the
  node rows) and the output are at block row `t`, that is rows `2000·t … 2000·t + 1999` of their arrays, and the
  weight matrix and the bias are at their one block, the whole array. So row `p` of a row-blocked block is row
  `2000·t + p` of its array. Each fact is stated for an arbitrary array first and then read at the array the region
  is entered with.
-/
import proofs.«100019_j13374528159917_1_alg».proof.Proof.Gen.KernelIdeal.Frame
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe
open Idealize.SL.Sem Idealize.ShloMosaic.ValueIdx

/-- The block each window is at, at point `t` (decided over the 50 points). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (c : Dev nD) (t : Fin cfg0.N)

/-! ## A block read out of an arbitrary array -/

theorem read_agg_rows (A : Buf (Elt Ideal) ((c : Thread nD τ).loc main_v13)) (p : Fin 2000) (k : Fin 128) (r : Fin 100000)
    (hr : r.val = t.val * 2000 + p.val) :
    ((cfg0.win 0).blk t).view.read (Elt Ideal) A (ix2 p k) = A (ix2 r k) := by
  obtain ⟨e0, e1, -⟩ := block_indices t
  show A (((cfg0.win 0).blk t).view.emb (ix2 p k)) = A (ix2 r k)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

theorem read_deg_rows (A : Buf (Elt Ideal) ((c : Thread nD τ).loc main_v19)) (p : Fin 2000) (r : Fin 100000)
    (hr : r.val = t.val * 2000 + p.val) :
    ((cfg0.win 1).blk t).view.read (Elt Ideal) A (ix2 p (0 : Fin 1)) = A (ix2 r (0 : Fin 1)) := by
  obtain ⟨-, -, e0, e1, -⟩ := block_indices t
  show A (((cfg0.win 1).blk t).view.emb (ix2 p (0 : Fin 1))) = A (ix2 r (0 : Fin 1))
  refine congrArg A (funext fun a => Fin.ext ?_)
  match a with
  | ⟨0, _⟩ => show win0_1.index t (0 : Fin 2) * 2000 + 1 * p.val = r.val; omega
  | ⟨1, _⟩ => show win0_1.index t (1 : Fin 2) * 1 + 1 * 0 = 0; omega

theorem read_x_rows (A : Buf (Elt Ideal) ((c : Thread nD τ).loc main_arg0)) (p : Fin 2000) (k : Fin 128) (r : Fin 100000)
    (hr : r.val = t.val * 2000 + p.val) :
    ((cfg0.win 2).blk t).view.read (Elt Ideal) A (ix2 p k) = A (ix2 r k) := by
  obtain ⟨-, -, -, -, e0, e1, -⟩ := block_indices t
  show A (((cfg0.win 2).blk t).view.emb (ix2 p k)) = A (ix2 r k)
  refine congrArg A (funext fun a => Fin.ext ?_)
  match a with
  | ⟨0, _⟩ => show win0_2.index t (0 : Fin 2) * 2000 + 1 * p.val = r.val; omega
  | ⟨1, _⟩ => show win0_2.index t (1 : Fin 2) * 128 + 1 * k.val = k.val; omega

theorem read_w_whole (A : Buf (Elt Ideal) ((c : Thread nD τ).loc main_arg2)) (q k : Fin 128) :
    ((cfg0.win 3).blk t).view.read (Elt Ideal) A (ix2 q k) = A (ix2 q k) := by
  obtain ⟨-, -, -, -, -, -, e0, e1, -⟩ := block_indices t
  show A (((cfg0.win 3).blk t).view.emb (ix2 q k)) = A (ix2 q k)
  refine congrArg A (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

theorem read_b_whole (A : Buf (Elt Ideal) ((c : Thread nD τ).loc main_arg3)) (q : Fin 128) :
    ((cfg0.win 4).blk t).view.read (Elt Ideal) A (ix1 q) = A (ix1 q) := by
  obtain ⟨-, -, -, -, -, -, -, -, e0, -⟩ := block_indices t
  show A (((cfg0.win 4).blk t).view.emb (ix1 q)) = A (ix1 q)
  refine congrArg A (funext fun a => Fin.ext ?_)
  match a with
  | ⟨0, _⟩ => show win0_4.index t (0 : Fin 1) * 128 + 1 * q.val = q.val; omega

/-- A block of 2000 rows `X` is the output window's block at point `t` of an array `G` as soon as row `p` of `X` is
    row `2000·t + p` of `G`. -/
theorem cut_eq_read_of_rows (X : Vec Ideal S2000x128 .f32) (G : Buf (Elt Ideal) ((c : Thread nD τ).loc main_v20))
    (h : ∀ (p : Fin 2000) (q : Fin 128) (r : Fin 100000), r.val = t.val * 2000 + p.val → X (ix2 p q) = G (ix2 r q)) :
    (cfg0.win 5).cut (grid0.coords t) X = ((cfg0.win 5).blk t).view.read (Elt Ideal) G := by
  funext j
  obtain ⟨p, q, rfl⟩ : ∃ (p : Fin 2000) (q : Fin 128), j = ix2 p q := ⟨j 0, j 1, eq_ix2 j⟩
  have hN : cfg0.N = 50 := N_0
  have hp : p.val < 2000 := p.isLt
  have ht : t.val < cfg0.N := t.isLt
  obtain ⟨-, -, -, -, -, -, -, -, -, e0, e1⟩ := block_indices t
  have hemb : ((cfg0.win 5).blk t).view.emb (ix2 p q) = ix2 (⟨t.val * 2000 + p.val, by omega⟩ : Fin 100000) q :=
    funext fun a => Fin.ext (by
      match a with
      | ⟨0, _⟩ => show win0_5.index t (0 : Fin 2) * 2000 + 1 * p.val = t.val * 2000 + p.val; omega
      | ⟨1, _⟩ => show win0_5.index t (1 : Fin 2) * 128 + 1 * q.val = q.val; omega)
  show X (ix2 p q) = G (((cfg0.win 5).blk t).view.emb (ix2 p q))
  rw [hemb]
  exact h p q _ rfl

/-! ## The blocks of the arrays the region is entered with -/

variable (m : (ℓ : Loc nD τ sig) → Buf (Elt Ideal) ℓ)

theorem agg_block (p : Fin 2000) (k : Fin 128) (r : Fin 100000) (hr : r.val = t.val * 2000 + p.val) :
    (iblk m c 0 t : Vec Ideal S2000x128 .f32) (ix2 p k) = (V m c main_v13 : FVec Ideal S100000x128 .f32) (ix2 r k) := by
  unfold iblk
  exact read_agg_rows c t (V m c main_v13) p k r hr

theorem deg_block (p : Fin 2000) (r : Fin 100000) (hr : r.val = t.val * 2000 + p.val) :
    (iblk m c 1 t : Vec Ideal S2000x1 .f32) (ix2 p (0 : Fin 1)) = (V m c main_v19 : FVec Ideal S100000x1 .f32) (ix2 r (0 : Fin 1)) := by
  unfold iblk
  exact read_deg_rows c t (V m c main_v19) p r hr

theorem x_block (p : Fin 2000) (k : Fin 128) (r : Fin 100000) (hr : r.val = t.val * 2000 + p.val) :
    (iblk m c 2 t : Vec Ideal S2000x128 .f32) (ix2 p k) = (V m c main_arg0 : FVec Ideal S100000x128 .f32) (ix2 r k) := by
  unfold iblk
  exact read_x_rows c t (V m c main_arg0) p k r hr

theorem w_block (q k : Fin 128) :
    (iblk m c 3 t : Vec Ideal S128x128 .f32) (ix2 q k) = (V m c main_arg2 : FVec Ideal S128x128 .f32) (ix2 q k) := by
  unfold iblk
  exact read_w_whole c t (V m c main_arg2) q k

theorem b_block (q : Fin 128) :
    (iblk m c 4 t : Vec Ideal S128 .f32) (ix1 q) = (V m c main_arg3 : FVec Ideal S128 .f32) (ix1 q) := by
  unfold iblk
  exact read_b_whole c t (V m c main_arg3) q

end Cert.KernelIdeal.Rows

end
-- ==== Proof.KernelLayer.lean ====
/-
  The kernel computes the layer, block by block.

  Point `t` of the grid works on nodes `2000·t … 2000·t + 1999`. Row `p` of each row-blocked block at point `t` is
  row `2000·t + p` of its array and the weights and bias are handed over whole (BlockRows), so what the body stores
  at `(p, q)` (BlockValue) is the layer's entry at node `2000·t + p` and feature `q`: point `t` writes back block
  `t` of the layer. The 50 blocks cover all 100000 rows (node `r` lies in the block of point `r / 2000`), hence the
  result array after the run is the layer of the arrays the region was entered with.
-/
import proofs.«100019_j13374528159917_1_alg».proof.Proof.Gen.KernelIdeal.Value
import proofs.«100019_j13374528159917_1_alg».proof.Proof.BlockValue
import proofs.«100019_j13374528159917_1_alg».proof.Proof.BlockRows
import proofs.«100019_j13374528159917_1_alg».proof.Proof.LayerSpec
import Idealize.ShloMosaic.Lib.Pipeline.Value

noncomputable section

open scoped BigOperators

namespace Cert.KernelIdeal.Layer

open Cert.KernelIdeal Cert.KernelIdeal.Gen Cert.KernelIdeal.Value Idealize.ShloMosaic Idealize.ShloMosaic.TcCoe
open Idealize.SL.Sem Idealize.ShloMosaic.ValueIdx Cert.GcnLayer
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- Row `p` of what the body stores at point `t` is row `2000·t + p` of the layer. -/
theorem stored_row (c : Dev nD) (t : Fin cfg0.N) (p : Fin 2000) (q : Fin 128) (r : Fin 100000)
    (hr : r.val = t.val * 2000 + p.val) :
    k0_pay1 (F := Ideal) (iblk m c 0 t) (iblk m c 1 t) (iblk m c 2 t) (iblk m c 3 t) (iblk m c 4 t) (ix2 p q)
      = layer (V m c main_v13) (V m c main_v19) (V m c main_arg0) (V m c main_arg2) (V m c main_arg3) (ix2 r q) := by
  rw [layer_apply]
  unfold layerAt
  refine (Block.payload_apply (iblk m c 0 t) (iblk m c 1 t) (iblk m c 2 t) (iblk m c 3 t) (iblk m c 4 t) p q).trans ?_
  refine congrArg₂ max (congrArg₂ (· + ·) (Finset.sum_congr rfl fun k _ => ?_) ?_) rfl
  · rw [Rows.agg_block c t m p k r hr, Rows.deg_block c t m p r hr, Rows.x_block c t m p k r hr, Rows.w_block c t m q k]
  · exact Rows.b_block c t m q

/-- Point `t` writes back block `t` of the layer of the arrays the region was entered with. -/
theorem flushed_eq_layer (c : Dev nD) (t : Fin cfg0.N) :
    (dats m 0 c).flushed 5 t = ((cfg0.win 5).blk t).view.read (Elt Ideal)
      (layer (V m c main_v13) (V m c main_v19) (V m c main_arg0) (V m c main_arg2) (V m c main_arg3)) := by
  rw [flushed5]
  unfold out0_5
  rw [View.canon_unit_zero zero2]
  simp only [View.ld_unit_zero (S := S2000x128) zero2, View.ld_unit_zero (S := S2000x1) zero2,
    View.ld_unit_zero (S := S128x128) zero2, View.ld_unit_zero (S := S128) zero1]
  exact Rows.cut_eq_read_of_rows c t _ _ (fun p q r hr => stored_row m c t p q r hr)

end Cert.KernelIdeal.Layer

end
-- ==== Proof.KernelRun.lean ====
/-
  The result array after the kernel's run.

  Every point writes back block `t` of the layer (KernelLayer), and every index of the 100000 × 128 result array lies
  in one of the 50 blocks: row `r` is in the block of point `r / 2000`, whose rows are `2000·(r / 2000) …
  2000·(r / 2000) + 1999`, and each block spans all 128 columns. So the array ends holding the layer.
-/
import proofs.«100019_j13374528159917_1_alg».proof.Proof.KernelLayer

noncomputable section

namespace Cert.KernelIdeal.Layer

open Cert.KernelIdeal Cert.KernelIdeal.Gen Cert.KernelIdeal.Value Idealize.ShloMosaic Idealize.ShloMosaic.TcCoe
open Idealize.SL.Sem Idealize.ShloMosaic.ValueIdx Cert.GcnLayer
open Idealize.ShloMosaic.Pipeline (Dat)

variable (m : (ℓ : Loc nD τ sig) → Buf (Elt Ideal) ℓ) (ρ : Dev nD → PrngReg)

/-- An index of the result array lies in point `t`'s block iff each coordinate lies in the block's range. -/
theorem mem_block (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v20).slice (win0_5.rect t)).set ↔ _
  rw [View.set_slice_whole, Rect.mem_set_unit]
  exact Iff.rfl

/-- Every index of the result array lies in the block of the point its row falls in. -/
theorem covered (i : S100000x128.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  have ht : (i 0).val / 2000 < cfg0.N := by omega
  obtain ⟨-, -, -, -, -, -, -, -, -, e0, e1⟩ := Rows.block_indices (⟨(i 0).val / 2000, ht⟩ : Fin cfg0.N)
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]
    omega

/-- The result array after the run is the layer of the arrays the region was entered with. -/
theorem final_eq_layer (c : Dev nD) :
    (dats m 0 c).arrAt 5 cfg0.N
      = layer (V m c main_v13) (V m c main_v19) (V m c main_arg0) (V m c main_arg2) (V m c main_arg3) :=
  (dats m 0 c).arrAt_eq_of_cover 5
    (layer (V m c main_v13) (V m c main_v19) (V m c main_arg0) (V m c main_arg2) (V m c main_arg3))
    (fun t _ => flushed_eq_layer m c t) covered

/-- The run: every fair execution ends with the result array at that layer and the arguments unchanged. -/
theorem run : θ_run defs (onTc (τ := τ) (main (F := Ideal))) ⟨m, fun _ => 0, ρ⟩ fun r => ∀ c : Dev nD,
      r.2.mem ((c : Thread nD τ).loc main_v20)
        = layer (V m c main_v13) (V m c main_v19) (V m c main_arg0) (V m c main_arg2) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq_layer m c), (h c).2⟩) (run_blocks m ρ)

end Cert.KernelIdeal.Layer

end
-- ==== Proof.ReferenceLayer.lean ====
/-
  The reference computes the layer.

  Its last operations divide the summed neighbour rows by the degree column laid along the features, add the node
  rows, multiply by the transposed weight matrix, add the bias laid along every row and clip at zero. Read at node
  `r` and output feature `c`, the matrix product is the sum over the 128 input features `k` of the left factor at
  `(r, k)` times the transposed weights at `(k, c)`, that is the weights at `(c, k)`; the degree laid along the
  features is the column's entry at row `r`; the bias laid along the rows is its entry at `c`. So the result is the
  layer of the reference's own summed neighbour rows and clamped degrees.
-/
import proofs.«100019_j13374528159917_1_alg».proof.Proof.Gen.ReferenceIdeal.Read
import proofs.«100019_j13374528159917_1_alg».proof.Proof.LayerSpec

noncomputable section

open scoped BigOperators

namespace Cert.ReferenceIdeal.Layer

open Cert.ReferenceIdeal Cert.ReferenceIdeal.Read Idealize.ShloMosaic Idealize.ShloMosaic.ValueIdx Cert.GcnLayer

/-- The reference's result, as a function of its four arguments, is the layer of its summed neighbour rows
    (`val_main_v13`) and its clamped degree column (`val_main_v19`). -/
theorem result_eq_layer (x0 : FVec Ideal S100000x128 .f32) (x1 : IVec S2x640000 32) (x2 : FVec Ideal S128x128 .f32)
    (x3 : FVec Ideal S128 .f32) :
    val_main_v28 (F := Ideal) x0 x1 x2 x3
      = layer (val_main_v13 (F := Ideal) x0 x1) (val_main_v19 (F := Ideal) x1) x0 x2 x3 := by
  funext i
  obtain ⟨r, c, rfl⟩ : ∃ (r : Fin 100000) (c : Fin 128), i = ix2 r c := ⟨i 0, i 1, eq_ix2 i⟩
  rw [layer_apply]
  unfold layerAt
  rw [val_main_v28_apply, val_main_v27_apply, val_main_v24_apply, val_main_v26_apply, val_main_v25_apply,
    val_main_call0_v0_apply, val_main_call0_cst_apply]
  refine congrArg₂ max (congrArg₂ (· + ·) (Finset.sum_congr rfl fun k _ => ?_) ?_) rfl
  · have e1 : lidx_main_v24 (ix2 r c) k = ix2 r k :=
      funext fun a => Fin.ext (by match a with | ⟨0, _⟩ => rfl | ⟨1, _⟩ => rfl)
    have e2 : idx_main_v20 (ix2 r k) = ix2 r (0 : Fin 1) :=
      funext fun a => Fin.ext (by match a with | ⟨0, _⟩ => rfl | ⟨1, _⟩ => rfl)
    have e3 : idx_main_v23 (ridx_main_v24 (ix2 r c) k) = ix2 c k :=
      funext fun a => Fin.ext (by match a with | ⟨0, _⟩ => rfl | ⟨1, _⟩ => rfl)
    rw [val_main_v22_apply, val_main_v21_apply, val_main_v20_apply, val_main_v23_apply, e1, e2, e3]
    rfl
  · have e4 : idx_main_v25 (idx_main_v26 (ix2 r c)) = ix1 c :=
      funext fun a => Fin.ext (by match a with | ⟨0, _⟩ => rfl)
    rw [e4]

end Cert.ReferenceIdeal.Layer

end
-- ==== Proof.HostPrefix.lean ====
/-
  The two programs prepare the same arrays before the dense stage.

  Both start with the same host operations on the edge list and the node features: the source and destination rows of
  the edge list, the gather of the source nodes' rows, their sum per destination node, the count of edges per
  destination node and its clamp below at one. The kernel's program hands the summed rows and the clamped counts to
  its dense stage; the reference goes on with them on the host. Here: the arrays the kernel's region is entered with
  are, as functions of the arguments, the reference's stages of the same names. The operations are never opened:
  the two terms are the same operations applied to the same arguments.
-/
import proofs.«100019_j13374528159917_1_alg».proof.Proof.Gen.KernelIdeal.Frame
import proofs.«100019_j13374528159917_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The summed neighbour rows the region is entered with are the reference's, of the same arguments. -/
theorem agg_eq (c : Dev nD) :
    (V m c main_v13 : S100000x128.Idx → EReal)
      = Cert.ReferenceIdeal.Read.val_main_v13 (F := Ideal) (m ((c : Thread nD τ).loc main_arg0))
          (m ((c : Thread nD τ).loc main_arg1)) := by
  dsimp only [Gen.V, Gen.hostOps0]
  after_results
  rfl

/-- The clamped degree column the region is entered with is the reference's, of the same argument. -/
theorem deg_eq (c : Dev nD) :
    (V m c main_v19 : S100000x1.Idx → EReal)
      = Cert.ReferenceIdeal.Read.val_main_v19 (F := Ideal) (m ((c : Thread nD τ).loc main_arg1)) := by
  dsimp only [Gen.V, Gen.hostOps0]
  after_results
  rfl

end Cert.KernelIdeal.HostPrefix

end
-- ==== Proof.lean ====
/-
  A graph-convolution layer on 100000 nodes with 128 features: the tiled kernel against the plain reference, equal on
  the extended reals.

  Both programs first gather the source nodes' rows along the edge list, sum them per destination node and count the
  edges per destination node, clamping the count below at one; these host operations are the same in both programs
  and are never opened (Proof/HostPrefix). The kernel's program then runs a dense stage over 50 blocks of 2000 nodes;
  the reference goes on with whole-array operations. Both compute, at node `r` and output feature `c`,

      max ( Σ_k (agg[r,k] / deg[r] + x[r,k]) · W[c,k]  +  b[c] ,  0 )

  (Proof/LayerSpec): the kernel because row `p` of its block at point `t` is row `2000·t + p` of each row-blocked
  array, its rounding to bf16 is the identity on the extended reals and its matrix product into a zero accumulator is
  the plain sum over the input features (Proof/BlockValue, BlockRows, KernelLayer, KernelRun); the reference by
  reading its operations at an index (Proof/ReferenceLayer). The same sum of the same terms stands on both sides, so
  no law of arithmetic is used and the finiteness of the inputs is not needed.

  The three programs' runs terminate without a fault and leave the arguments unchanged by the generated frame runs;
  the idealized kernel is the kernel's own text read on the extended reals (no rewrite was applied), so there is
  nothing to show for it.
-/
import proofs.«100019_j13374528159917_1_alg».proof.Defs
import proofs.«100019_j13374528159917_1_alg».proof.Proof.Gen.Kernel
import proofs.«100019_j13374528159917_1_alg».proof.Proof.Gen.Kernel.Frame
import proofs.«100019_j13374528159917_1_alg».proof.Proof.Gen.KernelIdeal
import proofs.«100019_j13374528159917_1_alg».proof.Proof.Gen.KernelIdeal.Frame
import proofs.«100019_j13374528159917_1_alg».proof.Proof.Gen.KernelIdeal.Value
import proofs.«100019_j13374528159917_1_alg».proof.Proof.Gen.ReferenceIdeal
import proofs.«100019_j13374528159917_1_alg».proof.Proof.Gen.ReferenceIdeal.Run
import proofs.«100019_j13374528159917_1_alg».proof.Proof.Gen.ReferenceIdeal.Read
import proofs.«100019_j13374528159917_1_alg».proof.Proof.Gen.Pre_finite_inputs
import proofs.«100019_j13374528159917_1_alg».proof.Proof.LayerSpec
import proofs.«100019_j13374528159917_1_alg».proof.Proof.KernelRun
import proofs.«100019_j13374528159917_1_alg».proof.Proof.ReferenceLayer
import proofs.«100019_j13374528159917_1_alg».proof.Proof.HostPrefix
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the arguments both programs end with the layer of the same summed neighbour rows,
    clamped degrees, node rows, weights and bias. -/
theorem algebraic : Cert.algebraic_KernelIdeal_ReferenceIdeal := by
  intro m ρ m' ρ' _ hagree
  refine ⟨fun c => Cert.GcnLayer.layer (Cert.KernelIdeal.Gen.V m c Cert.KernelIdeal.main_v13)
      (Cert.KernelIdeal.Gen.V m c Cert.KernelIdeal.main_v19) (Cert.KernelIdeal.Gen.V m c Cert.KernelIdeal.main_arg0)
      (Cert.KernelIdeal.Gen.V m c Cert.KernelIdeal.main_arg2) (Cert.KernelIdeal.Gen.V m c Cert.KernelIdeal.main_arg3),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  show _ = Cert.GcnLayer.layer (Cert.KernelIdeal.Gen.V m c Cert.KernelIdeal.main_v13)
      (Cert.KernelIdeal.Gen.V m c Cert.KernelIdeal.main_v19) (Cert.KernelIdeal.Gen.V m c Cert.KernelIdeal.main_arg0)
      (Cert.KernelIdeal.Gen.V m c Cert.KernelIdeal.main_arg2) (Cert.KernelIdeal.Gen.V m c Cert.KernelIdeal.main_arg3)
  rw [Cert.ReferenceIdeal.Read.val_main_v28_eq, Cert.ReferenceIdeal.Layer.result_eq_layer,
    (hagree c).1, (hagree c).2.1, (hagree c).2.2.1, (hagree c).2.2.2,
    Cert.KernelIdeal.HostPrefix.agg_eq m c, Cert.KernelIdeal.HostPrefix.deg_eq m c,
    Cert.KernelIdeal.Gen.V_main_arg0 m c, Cert.KernelIdeal.Gen.V_main_arg2 m c, Cert.KernelIdeal.Gen.V_main_arg3 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
